-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x640 : Shape := ⟨3, ![128, 512, 640]⟩
abbrev S128x128 : Shape := ⟨2, ![128, 128]⟩
abbrev S_ : Shape := ⟨0, ![]⟩

class Facts : Prop where
  bcast_S_S128x512x640 : S_.BroadcastsInDim S128x512x640 (![] : Fin 0 → Fin S128x512x640.rank)
  reducesTo_S128x512x640_S_d0_1_2 : S128x512x640.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S128x512x640 .f32) (main_arg1 : FVec F S128x128 .f32) : IVec S_ 1 :=
  let main_v0 : FVec F S128x512x640 .f32 := Host.absf main_arg0
  let main_cst : FVec F S_ .f32 := constant S_ .f32 0x7F800000#32
  let main_v1 : FVec F S128x512x640 .f32 := broadcastInDim S128x512x640 ![] bcast_S_S128x512x640 main_cst
  let main_v2 : IVec S128x512x640 1 := cmpf .olt main_v0 main_v1
  let main_c : IVec S_ 1 := constantI S_ 1 1#1
  let main_v3 : IVec S_ 1 := (fun x v => Host.reduce IntOp.andi x v reducesTo_S128x512x640_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S128x512x640 : Shape := ⟨3, ![128, 512, 640]⟩
abbrev S128x128 : Shape := ⟨2, ![128, 128]⟩
abbrev S1x512x640 : Shape := ⟨3, ![1, 512, 640]⟩
abbrev S1x512x512 : Shape := ⟨3, ![1, 512, 512]⟩
abbrev S512x512 : Shape := ⟨2, ![512, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1x512 : Shape := ⟨2, ![1, 512]⟩

abbrev nBuf : Space → Nat
  | .hbm => 3
  | .vmem => 5
  | .smem => 0
  | _ => 0

abbrev bufTy : (tb : Table) → Fin (tcTables nBuf tb) → BufTy
  | .hbm, ⟨0, _⟩ => ⟨S128x512x640, .f32⟩
  | .hbm, ⟨1, _⟩ => ⟨S128x128, .f32⟩
  | .hbm, ⟨2, _⟩ => ⟨S128x512x640, .f32⟩
  | .local _ .vmem, ⟨0, _⟩ => ⟨S1x512x640, .f32⟩
  | .local _ .vmem, ⟨1, _⟩ => ⟨S1x512x640, .f32⟩
  | .local _ .vmem, ⟨2, _⟩ => ⟨S128x128, .f32⟩
  | .local _ .vmem, ⟨3, _⟩ => ⟨S1x512x640, .f32⟩
  | .local _ .vmem, ⟨4, _⟩ => ⟨S1x512x640, .f32⟩
  | _, _ => ⟨S128x512x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x512x640_S1x512x512_0_0_0 : ∀ a, (![0, 0, 0] : Fin 3 → Nat) a + S1x512x512.size a ≤ S1x512x640.size a
  h_S1x512x512 : 0 < S1x512x512.numel
  shapeCasts_S1x512x512_S512x512 : S1x512x512.ShapeCasts S512x512
  inb_S1x512x640_S1x512x128_0_0_512 : ∀ a, (![0, 0, 512] : Fin 3 → Nat) a + S1x512x128.size a ≤ S1x512x640.size a
  h_S1x512x128 : 0 < S1x512x128.numel
  shapeCasts_S1x512x128_S512x128 : S1x512x128.ShapeCasts S512x128
  reduces_S512x512_S512 : S512x512.Reduces [1] S512
  shapeCasts_S512_S512x1 : S512.ShapeCasts S512x1
  transposes_S512x1_p1_0_S1x512 : S512x1.Transposes [1, 0] S1x512
  iota_S512x512_d0_w32 : S512x512.Iotas .tc 32 [0]
  iota_S512x512_d1_w32 : S512x512.Iotas .tc 32 [1]
  natLt_1_32 : 1 < 32
  broadcasts_S512x1_S512x512 : S512x1.Broadcasts S512x512
  broadcasts_S1x512_S512x512 : S1x512.Broadcasts S512x512
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S512x512_S1x512x512 : S512x512.ShapeCasts S1x512x512
  shapeCasts_S512x128_S1x512x128 : S512x128.ShapeCasts S1x512x128
  dot_S512x512_S512x128_S512x128_1_0_0_1_n_n_wf : DotDims.WF S512x512 S512x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x640.size a ≤ S128x512x640.size a
  hwx0_0 : ∀ i : grid0.Coords, EltTy.bits .f32 = 32 ∨ (Rect.block (s := S128x512x640) S1x512x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x640.size a ≤ S128x512x640.size a
  hwx0_2 : ∀ i : grid0.Coords, EltTy.bits .f32 = 32 ∨ (Rect.block (s := S128x512x640) S1x512x640.size (cc0_transform_2 i) (hinb0_2 i)).WholeWords (EltTy.packing .f32)

variable [Facts₀]

def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S1x512x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x640.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x512x640 : Shape := ⟨3, ![128, 512, 640]⟩
abbrev S128x128 : Shape := ⟨2, ![128, 128]⟩
abbrev S128x512x512 : Shape := ⟨3, ![128, 512, 512]⟩
abbrev S128x512x128 : Shape := ⟨3, ![128, 512, 128]⟩
abbrev S_ : Shape := ⟨0, ![]⟩
abbrev S128x512 : Shape := ⟨2, ![128, 512]⟩
abbrev S512x512 : Shape := ⟨2, ![512, 512]⟩
abbrev S1x512x512 : Shape := ⟨3, ![1, 512, 512]⟩
abbrev S128x512x1 : Shape := ⟨3, ![128, 512, 1]⟩
abbrev S128x1x512 : Shape := ⟨3, ![128, 1, 512]⟩

abbrev nBuf : Space → Nat
  | .hbm => 39
  | .vmem => 0
  | .smem => 0
  | _ => 0

abbrev bufTy : (tb : Table) → Fin (tcTables nBuf tb) → BufTy
  | .hbm, ⟨0, _⟩ => ⟨S128x512x640, .f32⟩
  | .hbm, ⟨1, _⟩ => ⟨S128x128, .f32⟩
  | .hbm, ⟨2, _⟩ => ⟨S128x512x512, .f32⟩
  | .hbm, ⟨3, _⟩ => ⟨S128x512x128, .f32⟩
  | .hbm, ⟨4, _⟩ => ⟨S_, .f32⟩
  | .hbm, ⟨5, _⟩ => ⟨S128x512, .f32⟩
  | .hbm, ⟨6, _⟩ => ⟨S_, .f32⟩
  | .hbm, ⟨7, _⟩ => ⟨S128x512, .f32⟩
  | .hbm, ⟨8, _⟩ => ⟨S128x512, .i1⟩
  | .hbm, ⟨9, _⟩ => ⟨S128x512, .f32⟩
  | .hbm, ⟨10, _⟩ => ⟨S_, .f32⟩
  | .hbm, ⟨11, _⟩ => ⟨S128x512, .f32⟩
  | .hbm, ⟨12, _⟩ => ⟨S128x512, .f32⟩
  | .hbm, ⟨13, _⟩ => ⟨S_, .f32⟩
  | .hbm, ⟨14, _⟩ => ⟨S_, .f32⟩
  | .hbm, ⟨15, _⟩ => ⟨S128x512, .f32⟩
  | .hbm, ⟨16, _⟩ => ⟨S128x512, .f32⟩
  | .hbm, ⟨17, _⟩ => ⟨S512x512, .i32⟩
  | .hbm, ⟨18, _⟩ => ⟨S512x512, .i32⟩
  | .hbm, ⟨19, _⟩ => ⟨S_, .i32⟩
  | .hbm, ⟨20, _⟩ => ⟨S512x512, .i32⟩
  | .hbm, ⟨21, _⟩ => ⟨S512x512, .i32⟩
  | .hbm, ⟨22, _⟩ => ⟨S512x512, .i1⟩
  | .hbm, ⟨23, _⟩ => ⟨S512x512, .f32⟩
  | .hbm, ⟨24, _⟩ => ⟨S1x512x512, .f32⟩
  | .hbm, ⟨25, _⟩ => ⟨S128x512x512, .f32⟩
  | .hbm, ⟨26, _⟩ => ⟨S128x512x512, .f32⟩
  | .hbm, ⟨27, _⟩ => ⟨S128x512x1, .f32⟩
  | .hbm, ⟨28, _⟩ => ⟨S128x512x512, .f32⟩
  | .hbm, ⟨29, _⟩ => ⟨S128x512x512, .f32⟩
  | .hbm, ⟨30, _⟩ => ⟨S128x1x512, .f32⟩
  | .hbm, ⟨31, _⟩ => ⟨S128x512x512, .f32⟩
  | .hbm, ⟨32, _⟩ => ⟨S128x512x512, .f32⟩
  | .hbm, ⟨33, _⟩ => ⟨S128x512x128, .f32⟩
  | .hbm, ⟨34, _⟩ => ⟨S128x512x128, .f32⟩
  | .hbm, ⟨35, _⟩ => ⟨S_, .f32⟩
  | .hbm, ⟨36, _⟩ => ⟨S128x512x128, .f32⟩
  | .hbm, ⟨37, _⟩ => ⟨S128x512x128, .f32⟩
  | .hbm, ⟨38, _⟩ => ⟨S128x512x640, .f32⟩
  | _, _ => ⟨S128x512x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call1_cst : Ref sig .tc := ⟨.hbm, 35, rfl⟩
abbrev main_call1_v0 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  slices_S128x512x640_S128x512x512_0_0_0 : S128x512x640.Slices ![0, 0, 0] S128x512x512
  slices_S128x512x640_S128x512x128_0_0_512 : S128x512x640.Slices ![0, 0, 512] S128x512x128
  reducesTo_S128x512x512_S128x512_d2 : S128x512x512.ReducesTo [2] S128x512
  h_S_ : 0 < S_.numel
  bcast_S_S128x512 : S_.BroadcastsInDim S128x512 (![] : Fin 0 → Fin S128x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S128x512x512_0_1_2 : S1x512x512.BroadcastsInDim S128x512x512 (![0, 1, 2] : Fin 3 → Fin S128x512x512.rank)
  bcast_S128x512_S128x512x1_0_1 : S128x512.BroadcastsInDim S128x512x1 (![0, 1] : Fin 2 → Fin S128x512x1.rank)
  bcast_S128x512x1_S128x512x512_0_1_2 : S128x512x1.BroadcastsInDim S128x512x512 (![0, 1, 2] : Fin 3 → Fin S128x512x512.rank)
  bcast_S128x512_S128x1x512_0_2 : S128x512.BroadcastsInDim S128x1x512 (![0, 2] : Fin 2 → Fin S128x1x512.rank)
  bcast_S128x1x512_S128x512x512_0_1_2 : S128x1x512.BroadcastsInDim S128x512x512 (![0, 1, 2] : Fin 3 → Fin S128x512x512.rank)
  bcast_S_S128x512x128 : S_.BroadcastsInDim S128x512x128 (![] : Fin 0 → Fin S128x512x128.rank)
  concatenates_S128x512x512_S128x512x128_S128x512x640_d2 : Shape.Concatenates [S128x512x512, S128x512x128] S128x512x640 2
  dot_S128x512x512_S128x512x128_S128x512x128_2_1_1_2_0_0_wf : DotDims.WF S128x512x512 S128x512x128 S128x512x128 [2] [1] [1] [2] [0] [0]
  dot_S128x512x128_S128x128_S128x512x128_2_0_01_1_n_n_wf : DotDims.WF S128x512x128 S128x128 S128x512x128 [2] [0] [0, 1] [1] [] []

variable [Facts₀]

def dot_S128x512x512_S128x512x128_S128x512x128_2_1_1_2_0_0 : DotDims S128x512x512 S128x512x128 S128x512x128 where
  lhsContracting := [2]
  rhsContracting := [1]
  lhsNonContracting := [1]
  rhsNonContracting := [2]
  lhsBatch := [0]
  rhsBatch := [0]
  wf := dot_S128x512x512_S128x512x128_S128x512x128_2_1_1_2_0_0_wf
def dot_S128x512x128_S128x128_S128x512x128_2_0_01_1_n_n : DotDims S128x512x128 S128x128 S128x512x128 where
  lhsContracting := [2]
  rhsContracting := [0]
  lhsNonContracting := [0, 1]
  rhsNonContracting := [1]
  lhsBatch := []
  rhsBatch := []
  wf := dot_S128x512x128_S128x128_S128x512x128_2_0_01_1_n_n_wf

class Facts : Prop extends Facts₀ where

variable [Facts]
-- ==== Proof.LibInvSqrt.lean ====
/-
  The inverse square root guarded by a positivity test, on the extended reals.

  A normalization by 1 / √d that must give 0 where d is not positive is written, in programs, as a select on the
  comparison 0 < d between an inverse root and the constant 0. The inverse root itself has two spellings: the
  reciprocal square root, and one divided by the square root. Facts, for every extended real d:

  * a select on the comparison 0 < d between a and the constant 0 is  if 0 < d then a else 0;
  * for 0 < d, one divided by √d is the reciprocal square root of d: (√d)⁻¹ for a positive real, and 0 at +∞ on
    both sides (the reciprocal root of +∞ is 0; √(+∞) = +∞ and 1 · (+∞)⁻¹ = 1 · 0);
  * so both spellings of the guarded inverse root are the same function invSqrt, with no finiteness assumed: where
    d ≤ 0 (or d = -∞) neither inverse root is looked at.

  The float word 0x3F800000 is the real 1.
-/
import Idealize.ShloMosaic.PureOps.Ideal.Laws

noncomputable section

namespace Cert.LibInvSqrt

open Idealize.ShloMosaic

/-- The guarded inverse square root: 1 / √d where 0 < d, and 0 elsewhere. -/
def invSqrt (d : EReal) : EReal := if 0 < d then Ideal.rsqrt d else 0

/-- The word of the float 1.0 denotes the real 1. -/
theorem one_f32 : Ideal.ofBits .f32 0x3F800000#32 = 1 := by
  simp [Ideal.ofBits, Ideal.ieee, -EReal.coe_mul]
  norm_num

/-- A select on the comparison 0 < d against the constant 0. -/
theorem select_pos (d a : EReal) :
    Scalar.select (Ideal.cmp .ogt d 0) a 0 = if 0 < d then a else 0 := by
  unfold Scalar.select Ideal.cmp
  by_cases h : 0 < d <;> simp [h]

/-- One over the square root of a positive extended real is its reciprocal square root: (√d)⁻¹ for a positive real,
    and 0 at +∞ on both sides. -/
theorem div_one_sqrt {d : EReal} (h : 0 < d) : Ideal.div 1 (Ideal.sqrt d) = Ideal.rsqrt d := by
  induction d using EReal.rec with
  | bot => exact absurd h (by simp)
  | top => simp [Ideal.div]
  | coe r =>
    have hr : 0 < r := by exact_mod_cast h
    have hs : 0 < Real.sqrt r := Real.sqrt_pos.mpr hr
    rw [Ideal.sqrt_coe, Ideal.rsqrt_coe, if_neg (not_lt.mpr hr.le), if_neg (not_lt.mpr hr.le), if_neg hr.ne']
    rw [Ideal.div, if_neg (by exact_mod_cast hs.ne'), one_mul, EReal.coe_inv]

/-- The direct spelling, with the float zero word as the constant: select (0 < d) (rsqrt d) 0. -/
theorem select_rsqrt (d : EReal) :
    Scalar.select (Ideal.cmp .ogt d (Ideal.ofBits .f32 0x00000000#32)) (Ideal.rsqrt d) (Ideal.ofBits .f32 0x00000000#32)
      = invSqrt d := by
  rw [Ideal.ofBits_zero_f32, select_pos]; rfl

/-- The quotient spelling, with the float words of 0 and 1 as the constants: select (0 < d) (1 / √d) 0. -/
theorem select_div_sqrt (d : EReal) :
    Scalar.select (Ideal.cmp .ogt d (Ideal.ofBits .f32 0x00000000#32))
        (Ideal.div (Ideal.ofBits .f32 0x3F800000#32) (Ideal.sqrt d)) (Ideal.ofBits .f32 0x00000000#32)
      = invSqrt d := by
  rw [Ideal.ofBits_zero_f32, one_f32, select_pos]
  unfold invSqrt
  by_cases h : 0 < d
  · rw [if_pos h, if_pos h, div_one_sqrt h]
  · rw [if_neg h, if_neg h]

end Cert.LibInvSqrt

end
-- ==== Proof.LibEyeWord.lean ====
/-
  The identity matrix from two counters, as programs spell it.

  An identity matrix is built by comparing a row counter with a column counter (both 32-bit words) and turning the
  one-bit answer into a float: either widened to a word and read as a signed integer, or read directly as an unsigned
  integer (possibly after adding the zero word to the row counter). For counters p, q below 2³² the two words are
  equal exactly when p = q, and a one-bit value reads as 0 or 1 both ways, so every spelling is

      if p = q then 1 else 0

  on the extended reals.
-/
import Idealize.ShloMosaic.PureOps.Ideal.Laws

noncomputable section

namespace Cert.LibEyeWord

open Idealize.ShloMosaic

/-- Two numbers below 2³², as 32-bit words, are equal words exactly when they are equal. -/
theorem word_beq (p q : ℕ) (hp : p < 2 ^ 32) (hq : q < 2 ^ 32) :
    (BitVec.ofNat 32 p == BitVec.ofNat 32 q) = decide (p = q) := by
  by_cases h : p = q
  · subst h; simp
  · have hne : ¬ BitVec.ofNat 32 p = BitVec.ofNat 32 q := by
      intro e
      have e' := congrArg BitVec.toNat e
      simp only [BitVec.toNat_ofNat] at e'
      rw [Nat.mod_eq_of_lt hp, Nat.mod_eq_of_lt hq] at e'
      exact h e'
    simp [h, hne]

/-- The comparison bit widened to a word and read as a signed integer. -/
theorem eye_signed (p q : ℕ) (hp : p < 2 ^ 32) (hq : q < 2 ^ 32) :
    (((((IntOp.cmpi .eq (BitVec.ofNat 32 p) (BitVec.ofNat 32 q)).setWidth 32).toInt : ℝ)) : EReal)
      = if p = q then 1 else 0 := by
  unfold IntOp.cmpi
  rw [word_beq p q hp hq]
  by_cases h : p = q <;> simp [h]

/-- The comparison bit, of the row counter plus the zero word with the column counter, read as an unsigned integer. -/
theorem eye_unsigned (p q : ℕ) (hp : p < 2 ^ 32) (hq : q < 2 ^ 32) :
    ((((IntOp.cmpi .eq (IntOp.addi (BitVec.ofNat 32 p) 0#32) (BitVec.ofNat 32 q)).toNat : ℝ)) : EReal)
      = if p = q then 1 else 0 := by
  unfold IntOp.cmpi IntOp.addi
  rw [BitVec.add_zero, word_beq p q hp hq]
  by_cases h : p = q <;> simp [h]

end Cert.LibEyeWord

end
-- ==== Proof.GcnSpec.lean ====
/-
  One graph-convolution layer on one batch slab, written by coordinates on the extended reals.

  A slab is an adjacency matrix A (512 × 512) beside a feature matrix Fe (512 × 128); the layer's weights are
  Wm (128 × 128). With

      deg p      = ∑ q, A p q                                   the degree of node p,
      dinv d     = 1 / √d  if 0 < d,  and 0 otherwise            the inverse root, zero on isolated nodes,
      eye p q    = 1 if p = q, and 0 otherwise,
      anorm p q  = ((A p q + eye p q) · dinv (deg p)) · dinv (deg q)   the symmetrically normalized A + I,
      hid p f    = ∑ k, anorm p k · Fe k f,
      out p o    = max (∑ f, hid p f · Wm f o) 0,

  the layer's result is A joined, along the columns, with out. Nothing here needs the entries to be finite: the
  two programs compared against this specification differ from it only in

    * how the inverse root is spelt. One takes the reciprocal square root directly, the other divides one by the
      square root. For 0 < d these agree on every extended real: for a positive real both are (√d)⁻¹, and at +∞
      both are 0 (the reciprocal root of +∞ is 0, and 1 · (+∞)⁻¹ = 1 · 0). Where d ≤ 0 neither is looked at,
      because the comparison 0 < d selects the constant 0 instead;
    * how the identity matrix is spelt: a comparison of a row counter with a column counter, widened to a word and
      read as a signed or as an unsigned integer. A one-bit value reads the same either way;
    * the order of the two factors in (A + I) · dinv: multiplication on the extended reals is commutative.
-/
import Idealize.ShloMosaic.PureOps.Ideal.Laws
import Idealize.ShloMosaic.Lib.ValueIdx
import proofs.«169807_j15779709845755_1_alg».proof.Proof.LibInvSqrt
import proofs.«169807_j15779709845755_1_alg».proof.Proof.LibEyeWord

noncomputable section

namespace Cert.GcnSpec

open Idealize.ShloMosaic Idealize.ShloMosaic.ValueIdx

/-! ## The layer on one slab -/

/-- The degree of node p: the sum of row p of the adjacency matrix. -/
def deg (A : Fin 512 → Fin 512 → EReal) (p : Fin 512) : EReal := ∑ q : Fin 512, A p q

/-- The inverse square root of a degree, and zero for a degree that is not positive. -/
def dinv (d : EReal) : EReal := LibInvSqrt.invSqrt d

/-- The identity matrix. -/
def eye (p q : Fin 512) : EReal := if p = q then 1 else 0

/-- A + I scaled by the inverse root of the row's degree and then by that of the column's. -/
def anorm (A : Fin 512 → Fin 512 → EReal) (p q : Fin 512) : EReal :=
  (A p q + eye p q) * dinv (deg A p) * dinv (deg A q)

/-- The normalized adjacency applied to the features. -/
def hid (A : Fin 512 → Fin 512 → EReal) (Fe : Fin 512 → Fin 128 → EReal) (p : Fin 512) (f : Fin 128) : EReal :=
  ∑ k : Fin 512, anorm A p k * Fe k f

/-- … then to the weights, and rectified. -/
def out (A : Fin 512 → Fin 512 → EReal) (Fe : Fin 512 → Fin 128 → EReal) (Wm : Fin 128 → Fin 128 → EReal)
    (p : Fin 512) (o : Fin 128) : EReal :=
  max (∑ f : Fin 128, hid A Fe p f * Wm f o) 0

/-! ## The layer on the whole array

The input X is [128, 512, 640]: slab b holds its adjacency matrix in columns 0 … 511 and its features in columns
512 … 639. The result has the same shape: the adjacency columns copied, the feature columns replaced by out. -/

/-- Column q of the adjacency part, as a column of the slab. -/
def colA (q : Fin 512) : Fin 640 := ⟨q.val, by have := q.isLt; omega⟩

/-- Column f of the feature part, as a column of the slab. -/
def colF (f : Fin 128) : Fin 640 := ⟨512 + f.val, by have := f.isLt; omega⟩

/-- The adjacency matrix of slab b. -/
def slabA (X : (⟨3, ![128, 512, 640]⟩ : Shape).Idx → EReal) (b : Fin 128) : Fin 512 → Fin 512 → EReal :=
  fun p q => X (ix3 b p (colA q))

/-- The feature matrix of slab b. -/
def slabF (X : (⟨3, ![128, 512, 640]⟩ : Shape).Idx → EReal) (b : Fin 128) : Fin 512 → Fin 128 → EReal :=
  fun k f => X (ix3 b k (colF f))

/-- The weights by coordinates. -/
def wmat (W : (⟨2, ![128, 128]⟩ : Shape).Idx → EReal) : Fin 128 → Fin 128 → EReal := fun f o => W (ix2 f o)

/-- The layer's result at (b, p, c): X itself in the adjacency columns, the layer's output in the others. -/
def G (X : (⟨3, ![128, 512, 640]⟩ : Shape).Idx → EReal) (W : (⟨2, ![128, 128]⟩ : Shape).Idx → EReal)
    (b : Fin 128) (p : Fin 512) (c : Fin 640) : EReal :=
  if h : c.val < 512 then X (ix3 b p c)
  else out (slabA X b) (slabF X b) (wmat W) p ⟨c.val - 512, by have := c.isLt; omega⟩

/-- The same as a function of the array index. -/
def Garr (X : (⟨3, ![128, 512, 640]⟩ : Shape).Idx → EReal) (W : (⟨2, ![128, 128]⟩ : Shape).Idx → EReal) :
    (⟨3, ![128, 512, 640]⟩ : Shape).Idx → EReal := fun i => G X W (i 0) (i 1) (i 2)

/-! ## The two spellings of the inverse root -/

/-- The direct spelling: select (0 < d) (rsqrt d) 0. -/
theorem dinv_rsqrt (d : EReal) :
    Scalar.select (Ideal.cmp .ogt d (Ideal.ofBits .f32 0x00000000#32)) (Ideal.rsqrt d) (Ideal.ofBits .f32 0x00000000#32)
      = dinv d :=
  LibInvSqrt.select_rsqrt d

/-- The quotient spelling: select (0 < d) (1 / √d) 0. -/
theorem dinv_div_sqrt (d : EReal) :
    Scalar.select (Ideal.cmp .ogt d (Ideal.ofBits .f32 0x00000000#32))
        (Ideal.div (Ideal.ofBits .f32 0x3F800000#32) (Ideal.sqrt d)) (Ideal.ofBits .f32 0x00000000#32)
      = dinv d :=
  LibInvSqrt.select_div_sqrt d

/-! ## The two spellings of the identity matrix -/

/-- Equality of two counters below 512 is equality of their values. -/
theorem eye_val (p q : Fin 512) : (if p.val = q.val then (1 : EReal) else 0) = eye p q := by
  unfold eye
  by_cases h : p = q
  · subst h; rw [if_pos rfl, if_pos rfl]
  · rw [if_neg h, if_neg (fun e => h (Fin.ext e))]

/-- The comparison bit widened to a word and read as a signed integer. -/
theorem eye_signed (p q : Fin 512) :
    (((((IntOp.cmpi .eq (BitVec.ofNat 32 p.val) (BitVec.ofNat 32 q.val)).setWidth 32).toInt : ℝ)) : EReal) = eye p q := by
  have hp : p.val < 2 ^ 32 := by have := p.isLt; omega
  have hq : q.val < 2 ^ 32 := by have := q.isLt; omega
  exact (LibEyeWord.eye_signed p.val q.val hp hq).trans (eye_val p q)

/-- The comparison bit (of the row counter plus zero with the column counter) read as an unsigned integer. -/
theorem eye_unsigned (p q : Fin 512) :
    ((((IntOp.cmpi .eq (IntOp.addi (BitVec.ofNat 32 p.val) 0#32) (BitVec.ofNat 32 q.val)).toNat : ℝ)) : EReal) = eye p q := by
  have hp : p.val < 2 ^ 32 := by have := p.isLt; omega
  have hq : q.val < 2 ^ 32 := by have := q.isLt; omega
  exact (LibEyeWord.eye_unsigned p.val q.val hp hq).trans (eye_val p q)

end Cert.GcnSpec

end
-- ==== Proof.RefLayer.lean ====
/-
  The host program is the layer of the specification, stage by stage.

  Its stages, read at an index: the row sums of the adjacency part are deg; the select on 0 < deg between
  1 / √deg and 0 is dinv (the quotient spelling); the comparison of the two counters read as an unsigned integer is
  eye; the product  (dinv (deg p) · (A + I)) · dinv (deg q)  is anorm after swapping the first two factors; the two
  contractions are hid and the sum inside out; the maximum with 0 is out; and the final join along the columns puts
  the adjacency columns first and out after them, which is G.
-/
import proofs.«169807_j15779709845755_1_alg».proof.Proof.Gen.ReferenceIdeal.Read
import proofs.«169807_j15779709845755_1_alg».proof.Proof.GcnSpec

noncomputable section

namespace Cert.GcnRef

open Idealize.ShloMosaic Idealize.ShloMosaic.ValueIdx Cert.ReferenceIdeal Cert.ReferenceIdeal.Gen Cert.GcnSpec
open Cert.ReferenceIdeal.Read

variable (X : (⟨S128x512x640, .f32⟩ : BufTy).Contents (Elt Ideal)) (W : (⟨S128x128, .f32⟩ : BufTy).Contents (Elt Ideal))

/-- The row sums of the adjacency part: the degrees of slab b. -/
theorem ref_deg (b : Fin 128) (p : Fin 512) : val_main_v2 (F := Ideal) X (ix2 b p) = deg (slabA X b) p := by
  rw [val_main_v2_apply, val_main_cst_apply]
  show Ideal.ofBits .f32 0x00000000#32 + _ = _
  rw [Ideal.ofBits_zero_f32, zero_add]
  unfold deg slabA
  refine Finset.sum_congr rfl fun k _ => ?_
  rw [val_main_v0_apply]
  exact congrArg X (funext fun a => Fin.ext (by match a with | ⟨0, _⟩ => rfl | ⟨1, _⟩ => rfl | ⟨2, _⟩ => rfl))

/-- The inverse roots, in the quotient spelling. -/
theorem ref_dinv (b : Fin 128) (p : Fin 512) : val_main_v8 (F := Ideal) X (ix2 b p) = dinv (deg (slabA X b) p) := by
  rw [val_main_v8_apply, val_main_v4_apply, val_main_v7_apply, val_main_v5_apply, ref_deg, val_main_v3_apply,
    val_main_cst_0_apply, val_main_v6_apply, val_main_cst_1_apply, val_main_call0_v1_apply, val_main_call0_v0_apply,
    val_main_cst_2_apply]
  exact dinv_div_sqrt _

/-- The normalized adjacency: the host multiplies dinv (deg p) from the left. -/
theorem ref_anorm (b : Fin 128) (p q : Fin 512) :
    val_main_v23 (F := Ideal) X (ix3 b p q) = anorm (slabA X b) p q := by
  have e1 : idx_main_v18 (idx_main_v19 (ix3 b p q)) = ix2 b p :=
    funext fun a => Fin.ext (by match a with | ⟨0, _⟩ => rfl | ⟨1, _⟩ => rfl)
  have e2 : idx_main_v21 (idx_main_v22 (ix3 b p q)) = ix2 b q :=
    funext fun a => Fin.ext (by match a with | ⟨0, _⟩ => rfl | ⟨1, _⟩ => rfl)
  have e3 : idx_main_v15 (idx_main_v16 (ix3 b p q)) = ix2 p q :=
    funext fun a => Fin.ext (by match a with | ⟨0, _⟩ => rfl | ⟨1, _⟩ => rfl)
  have e0 : idx_main_v0 (ix3 b p q) = ix3 b p (colA q) :=
    funext fun a => Fin.ext (by match a with | ⟨0, _⟩ => rfl | ⟨1, _⟩ => rfl | ⟨2, _⟩ => rfl)
  rw [val_main_v23_apply, val_main_v20_apply, val_main_v19_apply, val_main_v18_apply, e1, ref_dinv,
    val_main_v22_apply, val_main_v21_apply, e2, ref_dinv,
    val_main_v17_apply, val_main_v0_apply, e0, val_main_v16_apply, val_main_v15_apply, e3,
    val_main_v14_apply, val_main_v13_apply, val_main_v12_apply, val_main_v9_apply, val_main_v11_apply,
    val_main_c_apply, val_main_v10_apply]
  show dinv (deg (slabA X b) p)
      * (X (ix3 b p (colA q))
          + (((IntOp.cmpi .eq (IntOp.addi (BitVec.ofNat 32 p.val) 0#32) (BitVec.ofNat 32 q.val)).toNat : ℝ) : EReal))
      * dinv (deg (slabA X b) q) = _
  rw [eye_unsigned, mul_comm (dinv (deg (slabA X b) p))]
  rfl

/-- The first contraction: the normalized adjacency applied to the features of the slab. -/
theorem ref_hid (b : Fin 128) (p : Fin 512) (f : Fin 128) :
    val_main_v24 (F := Ideal) X (ix3 b p f) = hid (slabA X b) (slabF X b) p f := by
  rw [val_main_v24_apply]
  unfold hid
  refine Finset.sum_congr rfl fun k _ => ?_
  have el : lidx_main_v24 (ix3 b p f) k = ix3 b p k :=
    funext fun a => Fin.ext (by match a with | ⟨0, _⟩ => rfl | ⟨1, _⟩ => rfl | ⟨2, _⟩ => rfl)
  have er : ridx_main_v24 (ix3 b p f) k = ix3 b k f :=
    funext fun a => Fin.ext (by match a with | ⟨0, _⟩ => rfl | ⟨1, _⟩ => rfl | ⟨2, _⟩ => rfl)
  have e1 : idx_main_v1 (ix3 b k f) = ix3 b k (colF f) :=
    funext fun a => Fin.ext (by match a with | ⟨0, _⟩ => rfl | ⟨1, _⟩ => rfl | ⟨2, _⟩ => rfl)
  rw [el, er, ref_anorm, val_main_v1_apply, e1]
  rfl

/-- The second contraction and the rectifier. -/
theorem ref_out (b : Fin 128) (p : Fin 512) (o : Fin 128) :
    val_main_v26 (F := Ideal) X W (ix3 b p o) = out (slabA X b) (slabF X b) (wmat W) p o := by
  rw [val_main_v26_apply, val_main_call1_v0_apply, val_main_call1_cst_apply, val_main_v25_apply]
  unfold out
  show max (∑ k : Fin 128, _) (Ideal.ofBits .f32 0x00000000#32) = _
  rw [Ideal.ofBits_zero_f32]
  refine congrArg (max · 0) (Finset.sum_congr rfl fun k _ => ?_)
  have el : lidx_main_v25 (ix3 b p o) k = ix3 b p k :=
    funext fun a => Fin.ext (by match a with | ⟨0, _⟩ => rfl | ⟨1, _⟩ => rfl | ⟨2, _⟩ => rfl)
  have er : ridx_main_v25 (ix3 b p o) k = ix2 k o :=
    funext fun a => Fin.ext (by match a with | ⟨0, _⟩ => rfl | ⟨1, _⟩ => rfl)
  rw [el, er, ref_hid]
  rfl

/-- The join along the columns: the adjacency columns, then the layer's output. -/
theorem ref_G : val_main_v27 (F := Ideal) X W = Garr X W := by
  funext i
  obtain ⟨b, p, c, rfl⟩ : ∃ (b : Fin 128) (p : Fin 512) (c : Fin 640), i = ix3 b p c := ⟨i 0, i 1, i 2, eq_ix3 i⟩
  show _ = G X W b p c
  unfold val_main_v27 G
  by_cases h : c.val < 512
  · rw [dif_pos h]
    rw [concatenate_pair_apply_left (t := S128x512x640) (s₁ := S128x512x512) (s₂ := S128x512x128) (2 : Fin 3) _ _
      concatenates_S128x512x512_S128x512x128_S128x512x640_d2 (ix3 b p c) rfl
      (ix3 b p (⟨c.val, h⟩ : Fin 512)) (fun a => by match a with | ⟨0, _⟩ => rfl | ⟨1, _⟩ => rfl | ⟨2, _⟩ => rfl)]
    rw [val_main_v0_apply]
    exact congrArg X (funext fun a => Fin.ext (by match a with | ⟨0, _⟩ => rfl | ⟨1, _⟩ => rfl | ⟨2, _⟩ => rfl))
  · rw [dif_neg h]
    have hc : c.val - 512 < 128 := by have := c.isLt; omega
    rw [concatenate_pair_apply_right (t := S128x512x640) (s₁ := S128x512x512) (s₂ := S128x512x128) (2 : Fin 3) _ _
      concatenates_S128x512x512_S128x512x128_S128x512x640_d2 (ix3 b p c) rfl rfl
      (ix3 b p (⟨c.val - 512, hc⟩ : Fin 128))
      (fun a ha => by match a with | ⟨0, _⟩ => rfl | ⟨1, _⟩ => rfl | ⟨2, _⟩ => exact absurd rfl ha)
      (by show c.val - 512 + 512 = c.val; omega)]
    exact ref_out X W b p _

end Cert.GcnRef

end
-- ==== Proof.LibColumn.lean ====
/-
  A column of row totals, read entry by entry.

  A body that normalizes each row of an [a, b] matrix by the row's total forms the totals as a vector [a], views the
  vector as a column [a, 1], and repeats the column along each row. Three facts read that chain at an index written
  by coordinates, over any extents:

  * the sum of an [a, b] matrix along its rows (a reduction over axis 1) has at entry p the value  ∑ q < b, x (p, q);
  * a vector [a] viewed as a column [a, 1] reads, at (p, 0), the vector's entry p: both sit at row-major position p;
  * a column [a, 1] repeated across b columns reads, at (p, q), the column's entry of row p.

  The first holds on the extended reals with no finiteness: it only names the terms of the sum.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibColumn

open Idealize.ShloMosaic Idealize.ShloMosaic.ValueIdx

variable {α : Type}

/-- The index of an [a, b] matrix that lies over entry p of the row totals, at column q, is (p, q). -/
theorem lift_row {a b : ℕ} (h : (⟨2, ![a, b]⟩ : Shape).Reduces [1] ⟨1, ![a]⟩) (p : Fin a) (q : Fin b) :
    h.lift (ix1 p) q = ix2 p q :=
  funext fun c => Fin.ext (by
    match c with
    | ⟨0, _⟩ => rfl
    | ⟨1, _⟩ => rfl)

/-- A sum along the rows: entry p of the totals is the sum over the columns q of the matrix's entry (p, q). -/
theorem rowSum_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  show ∑ q : Fin b, src (h.lift (ix1 p) q) = _
  exact Finset.sum_congr rfl fun q _ => congrArg src (lift_row h p q)

/-- A vector viewed as a column reads, at (p, 0), the vector's entry p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu]; omega)

/-- A column repeated across b columns reads, at (p, q), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) ?_
  intro ax
  match ax with
  | ⟨0, _⟩ =>
    show p.val = if a = 1 then 0 else p.val
    split_ifs with ha
    · have := p.isLt; omega
    · rfl
  | ⟨1, _⟩ =>
    show (0 : ℕ) = if (1 : ℕ) = 1 then 0 else q.val
    rw [if_pos rfl]

/-- The whole chain: the row totals of x, viewed as a column and repeated along each row, read at (p, q) the total
    of row p. -/
theorem rowTotals_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ (multiReduction .add [1] ⟨1, ![a]⟩ src acc h hφ hacc) h₁) h₂ (ix2 p q)
      = ∑ q' : Fin b, src (ix2 p q') :=
  (broadcastTo_a1_ab_apply _ h₂ p q).trans
    ((shapeCast_a_a1_apply _ h₁ p (0 : Fin 1)).trans (rowSum_apply src acc h hφ hacc p))

end Cert.LibColumn

end
-- ==== Proof.LibPlainDot.lean ====
/-
  Two general facts about sums, used wherever a matrix product is read entry by entry.

  * A product of an [a, K] matrix with a [K, b] matrix on the matrix unit, accumulated into the zero array, has at
    entry (p, q) the value  ∑ k < K, lhs (p, k) · rhs (k, q)  on the extended reals. The dimension numbers enter only
    through four facts about where the contraction reads its operands, each of which is decided by unfolding for a
    literal record: it contracts the left operand's axis 1 with the right operand's axis 0, and carries the output's
    row to the left operand and the output's column to the right one.
  * A sum over  n = a + b + c  consecutive positions is the sum over the first a, plus the sum over the next b, plus
    the sum over the last c. This holds in any commutative monoid, so on the extended reals it needs no finiteness:
    only the order and grouping of the terms change.
-/
import Idealize.ShloMosaic.PureOps.Ideal.Laws
import Idealize.ShloMosaic.Lib.ValueIdx

noncomputable section

namespace Idealize.ShloMosaic.PlainDot

open Idealize.ShloMosaic Idealize.ShloMosaic.ValueIdx

/-- A sum over `a + b + c` consecutive positions, cut into its three consecutive bands. -/
theorem sum_three_bands {M : Type} [AddCommMonoid M] {a b c n : ℕ} (hn : a + b + c = n) (f : Fin n → M) :
    ∑ k : Fin n, f k
      = (∑ k : Fin a, f ⟨k.val, by omega⟩) + (∑ k : Fin b, f ⟨a + k.val, by omega⟩)
        + ∑ k : Fin c, f ⟨a + b + k.val, by omega⟩ := by
  subst hn
  rw [Fin.sum_univ_add, Fin.sum_univ_add]
  rfl

/-- Entry (p, q) of an [a, K] × [K, b] product into the zero accumulator is the sum over the contracted position
    of the row's entry times the column's entry. -/
theorem matmul_zero_ix2 {a K b : ℕ} {φ₁ φ₂ : FTy}
    (d : DotDims (⟨2, ![a, K]⟩ : Shape) (⟨2, ![K, b]⟩ : Shape) (⟨2, ![a, b]⟩ : Shape))
    (hr : d.contr.rank = 1) (hs : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (prec : Option ContractPrecision)
    (lhs : FVec Ideal (⟨2, ![a, K]⟩ : Shape) φ₁) (rhs : FVec Ideal (⟨2, ![K, b]⟩ : Shape) φ₂) (p : Fin a) (q : Fin b) :
    FloatOps.matmul d prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (d.lhsIdx_val_of_single hlc _ _).trans hk)
  have er : d.rhsIdx (ix2 p q) ((contrEquiv1 d K hr hs).symm k) = ix2 k q := funext fun ax => Fin.ext (by
    match ax with
    | ⟨0, _⟩ => exact (d.rhsIdx_val_of_single hrc _ _).trans hk
    | ⟨1, _⟩ => exact hr1 _ _)
  rw [el, er]

end Idealize.ShloMosaic.PlainDot

end
-- ==== Proof.KernelSlab.lean ====
/-
  The kernel body computes the layer of the specification on the slab it is handed.

  The body loads the adjacency block a (512 × 512) and the feature block (512 × 128) of one slab and the weights,
  and stores a back unchanged beside the rectified double product. Its arithmetic is named here stage by stage,

      dcol a      the column of inverse roots: row sums, compared with 0, reciprocal square root or 0,
      eyeM        the identity matrix from two counters,
      anormM a    ((a + eyeM) · dcol a along the rows) · (dcol a transposed, along the columns),
      hidM a fe   anormM a times fe,
      outM a fe w the maximum of (hidM a fe times w) and 0,

  and each stage read at an entry is the specification's function of the same name: the row sum is a sum over the
  columns, a column viewed along rows or (transposed) along columns reads the entry of its row or column, a product
  into the zero accumulator is the sum over the contracted position, and a narrowing of the float format is the
  identity on the extended reals.
-/
import proofs.«169807_j15779709845755_1_alg».proof.Proof.Gen.KernelIdeal.Skeleton
import proofs.«169807_j15779709845755_1_alg».proof.Proof.GcnSpec
import proofs.«169807_j15779709845755_1_alg».proof.Proof.LibColumn
import proofs.«169807_j15779709845755_1_alg».proof.Proof.LibPlainDot
import Idealize.ShloMosaic.Lib.ValueLayout
import Idealize.ShloMosaic.Lib.Pipeline.Value

noncomputable section

namespace Cert.GcnKernel

open Idealize.ShloMosaic Idealize.ShloMosaic.ValueIdx Cert.KernelIdeal Cert.KernelIdeal.Gen Cert.GcnSpec

/-! ## The stages, as the body spells them -/

section Stages
variable {F : FTy → Type} [FloatOps F]

/-- The column of inverse roots of the row sums of a. -/
def dcol (a : FVec F S512x512 .f32) : FVec F S512x1 .f32 :=
  select
    (cmpf .ogt
      (shapeCast S512x1 (multiReduction .add [1] S512 a 0x00000000#32 reduces_S512x512_S512 (.inl rfl) rfl) shapeCasts_S512_S512x1)
      (broadcast S512x1 (Scalar.ofBits .f32 0x00000000#32)))
    (rsqrt (shapeCast S512x1 (multiReduction .add [1] S512 a 0x00000000#32 reduces_S512x512_S512 (.inl rfl) rfl) shapeCasts_S512_S512x1))
    (broadcast S512x1 (Scalar.ofBits .f32 0x00000000#32))

/-- The identity matrix: the row counter compared with the column counter. -/
def eyeM : FVec F S512x512 .f32 :=
  sitofp .f32 (extui 32 (cmpi .eq (iota .tc S512x512 32 [0] iota_S512x512_d0_w32) (iota .tc S512x512 32 [1] iota_S512x512_d1_w32)) natLt_1_32)

/-- a + I scaled along the rows and then along the columns. -/
def anormM (a : FVec F S512x512 .f32) : FVec F S512x512 .f32 :=
  mulf (mulf (addf a eyeM) (broadcastTo S512x512 (dcol a) broadcasts_S512x1_S512x512))
    (broadcastTo S512x512 (transpose S1x512 [1, 0] (dcol a) transposes_S512x1_p1_0_S1x512) broadcasts_S1x512_S512x512)

/-- The first product. -/
def hidM (a : FVec F S512x512 .f32) (fe : FVec F S512x128 .f32) : FVec F S512x128 .f32 :=
  matmul dot_S512x512_S512x128_S512x128_1_0_0_1_n_n none (truncf .bf16 (anormM a) bitsLt_bf16_f32) (truncf .bf16 fe bitsLt_bf16_f32)
    (constant S512x128 .f32 0x00000000#32)

/-- The second product, rectified. -/
def outM (a : FVec F S512x512 .f32) (fe : FVec F S512x128 .f32) (w : FVec F S128x128 .f32) : FVec F S512x128 .f32 :=
  maximumf
    (matmul dot_S512x128_S128x128_S512x128_1_0_0_1_n_n none (truncf .bf16 (hidM a fe) bitsLt_bf16_f32) (truncf .bf16 w bitsLt_bf16_f32)
      (constant S512x128 .f32 0x00000000#32))
    (broadcast S512x128 (Scalar.ofBits .f32 0x00000000#32))

/-- The stored feature columns are the last stage of the blocks the body loaded, with the leading unit axis put back. -/
theorem pay3_eq (v0 : Vec F S1x512x512 .f32) (v2 : Vec F S1x512x128 .f32) (v25 : Vec F S128x128 .f32) :
    k0_pay3 v0 v2 v25
      = shapeCast S1x512x128 (outM (k0_pay1 v0) (shapeCast S512x128 v2 shapeCasts_S1x512x128_S512x128) v25) shapeCasts_S512x128_S1x512x128 := rfl

/-- The stored adjacency columns are the loaded ones: the unit axis dropped and put back. -/
theorem pay2_eq (v0 : Vec F S1x512x512 .f32) : k0_pay2 v0 = v0 := by
  unfold k0_pay2 k0_pay1
  exact shapeCast_shapeCast v0 _ _

end Stages

/-! ## The stages at an entry, on the extended reals -/

/-- A matrix by coordinates. -/
abbrev mat {r c : ℕ} (a : (⟨2, ![r, c]⟩ : Shape).Idx → EReal) : Fin r → Fin c → EReal := fun p q => a (ix2 p q)

theorem dcol_apply (a : FVec Ideal S512x512 .f32) (p : Fin 512) (u : Fin 1) :
    dcol a (ix2 p u) = dinv (deg (mat a) p) := by
  unfold dcol
  rw [select_apply, cmpf_apply, broadcast_apply]
  show Scalar.select (Ideal.cmp .ogt (shapeCast S512x1 _ shapeCasts_S512_S512x1 (ix2 p u)) (Ideal.ofBits .f32 0x00000000#32))
      (Ideal.rsqrt (shapeCast S512x1 _ shapeCasts_S512_S512x1 (ix2 p u))) (Ideal.ofBits .f32 0x00000000#32) = _
  have hs : shapeCast S512x1 (multiReduction (F := Ideal) .add [1] S512 a 0x00000000#32 reduces_S512x512_S512 (.inl rfl) rfl)
      shapeCasts_S512_S512x1 (ix2 p u) = deg (mat a) p :=
    (LibColumn.shapeCast_a_a1_apply _ _ p u).trans (LibColumn.rowSum_apply a _ _ _ _ p)
  rw [hs]
  exact dinv_rsqrt _

theorem eyeM_apply (p q : Fin 512) : eyeM (F := Ideal) (ix2 p q) = eye p q := by
  unfold eyeM
  rw [sitofp_apply, extui_apply]
  show FloatOps.sitofp .f32 ((IntOp.cmpi .eq (iota .tc S512x512 32 [0] iota_S512x512_d0_w32 (ix2 p q))
      (iota .tc S512x512 32 [1] iota_S512x512_d1_w32 (ix2 p q))).setWidth 32) = _
  rw [iota_single_apply, iota_single_apply]
  exact eye_signed p q

theorem anormM_apply (a : FVec Ideal S512x512 .f32) (p q : Fin 512) :
    anormM a (ix2 p q) = anorm (mat a) p q := by
  unfold anormM
  rw [mulf_apply, mulf_apply, addf_apply, eyeM_apply, LibColumn.broadcastTo_a1_ab_apply, dcol_apply,
    broadcastTo_1b_ab_apply, transpose_ix2_apply, dcol_apply]
  rfl

/-! The two products contract axis 1 of the left operand with axis 0 of the right one. -/

theorem dotA_l0 (j : S512x128.Idx) (k : dot_S512x512_S512x128_S512x128_1_0_0_1_n_n.contr.Idx) :
    (dot_S512x512_S512x128_S512x128_1_0_0_1_n_n.lhsIdx j k 0).val = (j 0).val := by
  unfold DotDims.lhsIdx
  rw [dif_neg (show ¬(0 : Fin S512x512.rank) ∈ dot_S512x512_S512x128_S512x128_1_0_0_1_n_n.lhsBatch by decide),
    dif_pos (show (0 : Fin S512x512.rank) ∈ dot_S512x512_S512x128_S512x128_1_0_0_1_n_n.lhsNonContracting by decide)]
  rfl

theorem dotA_r1 (j : S512x128.Idx) (k : dot_S512x512_S512x128_S512x128_1_0_0_1_n_n.contr.Idx) :
    (dot_S512x512_S512x128_S512x128_1_0_0_1_n_n.rhsIdx j k 1).val = (j 1).val := by
  unfold DotDims.rhsIdx
  rw [dif_neg (show ¬(1 : Fin S512x128.rank) ∈ dot_S512x512_S512x128_S512x128_1_0_0_1_n_n.rhsBatch by decide),
    dif_pos (show (1 : Fin S512x128.rank) ∈ dot_S512x512_S512x128_S512x128_1_0_0_1_n_n.rhsNonContracting by decide)]
  rfl

theorem dotB_l0 (j : S512x128.Idx) (k : dot_S512x128_S128x128_S512x128_1_0_0_1_n_n.contr.Idx) :
    (dot_S512x128_S128x128_S512x128_1_0_0_1_n_n.lhsIdx j k 0).val = (j 0).val := by
  unfold DotDims.lhsIdx
  rw [dif_neg (show ¬(0 : Fin S512x128.rank) ∈ dot_S512x128_S128x128_S512x128_1_0_0_1_n_n.lhsBatch by decide),
    dif_pos (show (0 : Fin S512x128.rank) ∈ dot_S512x128_S128x128_S512x128_1_0_0_1_n_n.lhsNonContracting by decide)]
  rfl

theorem dotB_r1 (j : S512x128.Idx) (k : dot_S512x128_S128x128_S512x128_1_0_0_1_n_n.contr.Idx) :
    (dot_S512x128_S128x128_S512x128_1_0_0_1_n_n.rhsIdx j k 1).val = (j 1).val := by
  unfold DotDims.rhsIdx
  rw [dif_neg (show ¬(1 : Fin S128x128.rank) ∈ dot_S512x128_S128x128_S512x128_1_0_0_1_n_n.rhsBatch by decide),
    dif_pos (show (1 : Fin S128x128.rank) ∈ dot_S512x128_S128x128_S512x128_1_0_0_1_n_n.rhsNonContracting by decide)]
  rfl

theorem hidM_apply (a : FVec Ideal S512x512 .f32) (fe : FVec Ideal S512x128 .f32) (p : Fin 512) (f : Fin 128) :
    hidM a fe (ix2 p f) = hid (mat a) (mat fe) p f := by
  unfold hidM hid
  refine (PlainDot.matmul_zero_ix2 dot_S512x512_S512x128_S512x128_1_0_0_1_n_n rfl rfl rfl rfl dotA_l0 dotA_r1 none _ _ p f).trans ?_
  refine Finset.sum_congr rfl fun k _ => ?_
  rw [truncf_apply, truncf_apply, anormM_apply]

theorem outM_apply (a : FVec Ideal S512x512 .f32) (fe : FVec Ideal S512x128 .f32) (w : FVec Ideal S128x128 .f32)
    (p : Fin 512) (o : Fin 128) :
    outM a fe w (ix2 p o) = out (mat a) (mat fe) (mat w) p o := by
  unfold outM out
  rw [maximumf_apply, broadcast_apply]
  show max _ (Ideal.ofBits .f32 0x00000000#32) = _
  rw [Ideal.ofBits_zero_f32]
  refine congrArg (max · 0) ?_
  refine (PlainDot.matmul_zero_ix2 dot_S512x128_S128x128_S512x128_1_0_0_1_n_n rfl rfl rfl rfl dotB_l0 dotB_r1 none _ _ p o).trans ?_
  refine Finset.sum_congr rfl fun k _ => ?_
  rw [truncf_apply, truncf_apply, hidM_apply]

/-- The stored feature columns at (0, p, o): the layer's output of the loaded blocks at (p, o). -/
theorem pay3_apply (v0 : Vec Ideal S1x512x512 .f32) (v2 : Vec Ideal S1x512x128 .f32) (v25 : Vec Ideal S128x128 .f32)
    (u : Fin 1) (p : Fin 512) (o : Fin 128) :
    k0_pay3 v0 v2 v25 (ix3 u p o)
      = out (fun p q => v0 (ix3 (0 : Fin 1) p q)) (fun k f => v2 (ix3 (0 : Fin 1) k f)) (mat v25) p o := by
  rw [pay3_eq, shapeCast_ab_1ab_apply, outM_apply]
  have ea : mat (k0_pay1 v0) = fun p q => v0 (ix3 (0 : Fin 1) p q) :=
    funext fun p => funext fun q => shapeCast_1ab_ab_apply v0 _ p q
  have ef : mat (shapeCast S512x128 v2 shapeCasts_S1x512x128_S512x128) = fun k f => v2 (ix3 (0 : Fin 1) k f) :=
    funext fun k => funext fun f => shapeCast_1ab_ab_apply v2 _ k f
  rw [ea, ef]

end Cert.GcnKernel

end
-- ==== Proof.KernelBlock.lean ====
/-
  From the body to the whole result array.

  At grid point t the kernel is handed slab t of X (a [1, 512, 640] block) and the weights, and hands back a
  [1, 512, 640] block written as two pieces: columns 0 … 511 with the adjacency columns it loaded, and columns
  512 … 639 with the layer's output of the loaded blocks. Both pieces restrict ONE function of the block index
  (blockFn: the loaded entry in the adjacency columns, the layer's output elsewhere), so the block the point writes
  back is that function. Block t of the result array is row t of the array: an index (b, p, c) is covered by point b,
  and there blockFn of slab b is the specification's G at (b, p, c). So the array after the run is G of the
  arguments.
-/
import proofs.«169807_j15779709845755_1_alg».proof.Proof.Gen.KernelIdeal.Value
import proofs.«169807_j15779709845755_1_alg».proof.Proof.KernelSlab
import Idealize.ShloMosaic.Lib.Pipeline.Value
import Idealize.ShloMosaic.Lib.Tactic

set_option maxRecDepth 16384

noncomputable section

namespace Cert.GcnBlock

open Idealize.ShloMosaic Idealize.ShloMosaic.TcCoe Idealize.SL.Sem Idealize.ShloMosaic.ValueIdx
open Cert.KernelIdeal Cert.KernelIdeal.Gen Cert.GcnSpec Cert.GcnKernel
open Idealize.ShloMosaic.Pipeline (Dat)

/-! ## The block a point writes back -/

/-- What a point leaves in its output block at row p and column cc, as a function of the input block x0 and the
    weights x1: the loaded entry in the adjacency columns, the layer's output of the loaded blocks elsewhere. -/
def blockAt (x0 : S1x512x640.Idx → EReal) (x1 : S128x128.Idx → EReal) (p : Fin 512) (cc : Fin 640) : EReal :=
  if h : cc.val < 512 then x0 (ix3 (0 : Fin 1) p cc)
  else out (fun p q => x0 (ix3 (0 : Fin 1) p (colA q))) (fun k f => x0 (ix3 (0 : Fin 1) k (colF f))) (mat x1) p
    ⟨cc.val - 512, by have := cc.isLt; omega⟩

/-- The same as a function of the block index. -/
def blockFn (x0 : S1x512x640.Idx → EReal) (x1 : S128x128.Idx → EReal) : S1x512x640.Idx → EReal :=
  fun y => blockAt x0 x1 (y 1) (y 2)

theorem hz2 : (![0, 0] : Fin 2 → Nat) = fun _ => 0 := funext fun a => by fin_cases a <;> rfl

/-- The piece stored over the feature columns agrees with blockFn where it lands. -/
theorem piece_out (x0 : S1x512x640.Idx → EReal) (x1 : S128x128.Idx → EReal) (x : S1x512x128.Idx) :
    k0_pay3 (F := Ideal)
        (View.ld x0 (Rect.unit (s := S1x512x640) ![0, 0, 0] S1x512x512.size inb_S1x512x640_S1x512x512_0_0_0))
        (View.ld x0 (Rect.unit (s := S1x512x640) ![0, 0, 512] S1x512x128.size inb_S1x512x640_S1x512x128_0_0_512))
        (View.ld x1 (Rect.unit (s := S128x128) ![0, 0] S128x128.size inb_S128x128_S128x128_0_0)) x
      = blockFn x0 x1 ((Rect.unit (s := S1x512x640) ![0, 0, 512] S1x512x128.size inb_S1x512x640_S1x512x128_0_0_512).emb x) := by
  obtain ⟨u, p, o, rfl⟩ : ∃ (u : Fin 1) (p : Fin 512) (o : Fin 128), x = ix3 u p o := ⟨x 0, x 1, x 2, eq_ix3 x⟩
  rw [pay3_apply, View.ld_unit_zero (S := S128x128) hz2]
  have ho : o.val < 128 := o.isLt
  have hp : p.val < 512 := p.isLt
  have e1 : (Rect.unit (s := S1x512x640) ![0, 0, 512] S1x512x128.size inb_S1x512x640_S1x512x128_0_0_512).emb (ix3 u p o) 1 = p :=
    Fin.ext (by show 0 + 1 * p.val = p.val; omega)
  have e2 : (Rect.unit (s := S1x512x640) ![0, 0, 512] S1x512x128.size inb_S1x512x640_S1x512x128_0_0_512).emb (ix3 u p o) 2
      = (⟨512 + o.val, by omega⟩ : Fin 640) :=
    Fin.ext (by show 512 + 1 * o.val = 512 + o.val; omega)
  show _ = blockAt x0 x1 _ _
  rw [e1, e2]
  unfold blockAt
  rw [dif_neg (by show ¬ (512 + o.val) < 512; omega)]
  have eA : (fun (p : Fin 512) (q : Fin 512) =>
        View.ld (Val := Elt Ideal) (e' := .f32) x0 (Rect.unit (s := S1x512x640) ![0, 0, 0] S1x512x512.size inb_S1x512x640_S1x512x512_0_0_0) (ix3 (0 : Fin 1) p q))
      = fun p q => x0 (ix3 (0 : Fin 1) p (colA q)) :=
    funext fun p => funext fun q => congrArg x0 (funext fun a => Fin.ext (by
      match a with
      | ⟨0, _⟩ => show 0 + 1 * (0 : ℕ) = 0; omega
      | ⟨1, _⟩ => show 0 + 1 * p.val = p.val; omega
      | ⟨2, _⟩ => show 0 + 1 * q.val = q.val; omega))
  have eF : (fun (k : Fin 512) (f : Fin 128) =>
        View.ld (Val := Elt Ideal) (e' := .f32) x0 (Rect.unit (s := S1x512x640) ![0, 0, 512] S1x512x128.size inb_S1x512x640_S1x512x128_0_0_512) (ix3 (0 : Fin 1) k f))
      = fun k f => x0 (ix3 (0 : Fin 1) k (colF f)) :=
    funext fun k => funext fun f => congrArg x0 (funext fun a => Fin.ext (by
      match a with
      | ⟨0, _⟩ => show 0 + 1 * (0 : ℕ) = 0; omega
      | ⟨1, _⟩ => show 0 + 1 * k.val = k.val; omega
      | ⟨2, _⟩ => show 512 + 1 * f.val = 512 + f.val; omega))
  rw [eA, eF]
  have e3 : (⟨512 + o.val - 512, by omega⟩ : Fin 128) = o := Fin.ext (by show 512 + o.val - 512 = o.val; omega)
  exact congrArg (out _ _ (mat x1) p) e3.symm

/-- The piece stored over the adjacency columns agrees with blockFn where it lands. -/
theorem piece_adj (x0 : S1x512x640.Idx → EReal) (x1 : S128x128.Idx → EReal) (x : S1x512x512.Idx) :
    k0_pay2 (F := Ideal)
        (View.ld x0 (Rect.unit (s := S1x512x640) ![0, 0, 0] S1x512x512.size inb_S1x512x640_S1x512x512_0_0_0)) x
      = blockFn x0 x1 ((Rect.unit (s := S1x512x640) ![0, 0, 0] S1x512x512.size inb_S1x512x640_S1x512x512_0_0_0).emb x) := by
  obtain ⟨u, p, q, rfl⟩ : ∃ (u : Fin 1) (p : Fin 512) (q : Fin 512), x = ix3 u p q := ⟨x 0, x 1, x 2, eq_ix3 x⟩
  rw [pay2_eq]
  have hq : q.val < 512 := q.isLt
  have hu : u.val = 0 := by omega
  have e1 : (Rect.unit (s := S1x512x640) ![0, 0, 0] S1x512x512.size inb_S1x512x640_S1x512x512_0_0_0).emb (ix3 u p q) 1 = p :=
    Fin.ext (by show 0 + 1 * p.val = p.val; omega)
  have e2 : (Rect.unit (s := S1x512x640) ![0, 0, 0] S1x512x512.size inb_S1x512x640_S1x512x512_0_0_0).emb (ix3 u p q) 2 = colA q :=
    Fin.ext (by show 0 + 1 * q.val = q.val; omega)
  show _ = blockAt x0 x1 _ _
  rw [e1, e2]
  unfold blockAt
  rw [dif_pos (by show q.val < 512; exact hq)]
  exact congrArg x0 (funext fun a => Fin.ext (by
    match a with
    | ⟨0, _⟩ => show 0 + 1 * u.val = 0; omega
    | ⟨1, _⟩ => show 0 + 1 * p.val = p.val; omega
    | ⟨2, _⟩ => show 0 + 1 * q.val = q.val; omega))

/-- What the body leaves in the output block: blockFn of the input block and the weights. -/
theorem out_block (c : Dev nD) (i : grid0.Coords) (a1 : Memref sig .tc .vmem S1x512x640 .f32) (h1 : a1.IsWhole)
    (a2 : Memref sig .tc .vmem S128x128 .f32) (h2 : a2.IsWhole) (a3 : Memref sig .tc .vmem S1x512x640 .f32) (h3 : a3.IsWhole)
    (x0 : Vec Ideal S1x512x640 .f32) (x1 : Vec Ideal S128x128 .f32) :
    out0_A_2 (F := Ideal) c i a1 h1 a2 h2 a3 h3 x0 x1 = blockFn x0 x1 := by
  have hcov := cover0_A_2 (F := Ideal) c i a1 h1 a2 h2 a3 h3 x0 x1
  unfold out0_A_2
  rw [View.read_writes_eq_canon _ _ _ hcov]
  funext y
  refine View.canon_apply_of_pieces (blockFn x0 x1) _ ?_ y (hcov y)
  unfold kernelRun0_A
  dsimp only
  sl_unfold_words
  simp only [View.readAt_eq_ld, h1.read_unread, h2.read_unread]
  intro pc hpc
  simp only [List.mem_cons, List.not_mem_nil, or_false] at hpc
  rcases hpc with rfl | rfl
  · exact piece_out x0 x1
  · exact piece_adj x0 x1

end Cert.GcnBlock

end
-- ==== Proof.KernelArray.lean ====
/-
  The result array after the kernel's run is the specification's G of the two argument arrays.

  Point t of the grid reads block t of X (row t of the leading axis, whole in the other two) and the whole of W, and
  writes block t of the result. Reading the input block at (0, p, c) is reading X at (t, p, c), so the block function
  of the loaded blocks at (p, c) is G at (t, p, c): what point t writes back is block t of G. Every index (b, p, c) of
  the result lies in the block of point b, so the blocks cover the array and the array ends as G.
-/
import proofs.«169807_j15779709845755_1_alg».proof.Proof.KernelBlock

set_option maxRecDepth 16384

noncomputable section

namespace Cert.GcnArray

open Idealize.ShloMosaic Idealize.ShloMosaic.TcCoe Idealize.SL.Sem Idealize.ShloMosaic.ValueIdx
open Cert.KernelIdeal Cert.KernelIdeal.Gen Cert.GcnSpec Cert.GcnKernel Cert.GcnBlock
open Idealize.ShloMosaic.Pipeline (Dat)

/-- The block function of a slab's block and the weights is G on that slab. -/
theorem block_is_G (X : S128x512x640.Idx → EReal) (W : S128x128.Idx → EReal)
    (x0 : S1x512x640.Idx → EReal) (x1 : S128x128.Idx → EReal) (b : Fin 128)
    (hx0 : ∀ (p : Fin 512) (cc : Fin 640), x0 (ix3 (0 : Fin 1) p cc) = X (ix3 b p cc)) (hx1 : x1 = W)
    (p : Fin 512) (cc : Fin 640) :
    blockAt x0 x1 p cc = G X W b p cc := by
  subst hx1
  have eA : (fun (p : Fin 512) (q : Fin 512) => x0 (ix3 (0 : Fin 1) p (colA q))) = slabA X b :=
    funext fun p => funext fun q => hx0 p (colA q)
  have eF : (fun (k : Fin 512) (f : Fin 128) => x0 (ix3 (0 : Fin 1) k (colF f))) = slabF X b :=
    funext fun k => funext fun f => hx0 k (colF f)
  unfold blockAt G
  by_cases h : cc.val < 512
  · rw [dif_pos h, dif_pos h]; exact hx0 p cc
  · rw [dif_neg h, dif_neg h, eA, eF]; rfl

variable (m : (ℓ : Loc nD τ sig) → Buf (Elt Ideal) ℓ) (ρ : Dev nD → PrngReg)

/-- Where each window's block sits at point t: the input block and the output block on row t of the leading axis, the
    weights' block the whole array (decided over the 128 points). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- What point t writes back is block t of G of the argument arrays. -/
theorem flushed_eq (c : Dev nD) (t : Fin cfg0.N) :
    (dats m 0 c).flushed 2 t
      = ((cfg0.win 2).blk t).view.read (Elt Ideal) (Garr (V m c main_arg0) (V m c main_arg1)) := by
  rw [Cert.KernelIdeal.Value.flushed2_A, out_block]
  obtain ⟨e00, e01, e02, e10, e11, e20, e21, e22⟩ := idx_facts t
  have hN : cfg0.N = 128 := N_0
  have ht : t.val < 128 := by have := t.isLt; omega
  funext y
  have hy0 : (y 0).val < 1 := (y 0).isLt
  have E0 : ((cfg0.win 2).blk t).view.emb y 0 = (⟨t.val, ht⟩ : Fin 128) :=
    Fin.ext (by show win0_2.index t (0 : Fin 3) * 1 + 1 * (y 0).val = t.val; omega)
  have E1 : ((cfg0.win 2).blk t).view.emb y 1 = y 1 :=
    Fin.ext (by show win0_2.index t (1 : Fin 3) * 512 + 1 * (y 1).val = (y 1).val; omega)
  have E2 : ((cfg0.win 2).blk t).view.emb y 2 = y 2 :=
    Fin.ext (by show win0_2.index t (2 : Fin 3) * 640 + 1 * (y 2).val = (y 2).val; omega)
  show blockAt (iblk m c 0 t) (iblk m c 1 t) (y 1) (y 2)
      = G (V m c main_arg0) (V m c main_arg1) (((cfg0.win 2).blk t).view.emb y 0) (((cfg0.win 2).blk t).view.emb y 1)
          (((cfg0.win 2).blk t).view.emb y 2)
  rw [E0, E1, E2]
  refine block_is_G (V m c main_arg0) (V m c main_arg1) (iblk m c 0 t) (iblk m c 1 t) ⟨t.val, ht⟩ ?_ ?_ (y 1) (y 2)
  · intro p cc
    show V m c main_arg0 (((cfg0.win 0).blk t).view.emb (ix3 (0 : Fin 1) p cc)) = V m c main_arg0 (ix3 ⟨t.val, ht⟩ p cc)
    refine congrArg _ (funext fun a => Fin.ext ?_)
    match a with
    | ⟨0, _⟩ => show win0_0.index t (0 : Fin 3) * 1 + 1 * (0 : ℕ) = t.val; omega
    | ⟨1, _⟩ => show win0_0.index t (1 : Fin 3) * 512 + 1 * p.val = p.val; omega
    | ⟨2, _⟩ => show win0_0.index t (2 : Fin 3) * 640 + 1 * cc.val = cc.val; omega
  · funext j
    show V m c main_arg1 (((cfg0.win 1).blk t).view.emb j) = V m c main_arg1 j
    refine congrArg _ (funext fun a => Fin.ext ?_)
    match a with
    | ⟨0, _⟩ => show win0_1.index t (0 : Fin 2) * 128 + 1 * (j 0).val = (j 0).val; omega
    | ⟨1, _⟩ => show win0_1.index t (1 : Fin 2) * 128 + 1 * (j 1).val = (j 1).val; omega

/-- An index of the result array is in point t's block iff each coordinate is in the block's range on its axis. -/
theorem mem_blk (t : Fin cfg0.N) (i : S128x512x640.Idx) :
    i ∈ ((cfg0.win 2).blk t).view.set ↔ ∀ a : Fin 3, win0_2.index t a * S1x512x640.size a ≤ (i a).val
      ∧ (i a).val < win0_2.index t a * S1x512x640.size a + S1x512x640.size a := by
  show i ∈ ((View.whole main_v0).slice (win0_2.rect t)).set ↔ _
  rw [View.set_slice_whole, Rect.mem_set_unit]
  exact Iff.rfl

/-- Every index (b, p, c) of the result array is in the block of point b. -/
theorem cover (i : S128x512x640.Idx) :
    ∃ t : Fin cfg0.N, (cfg0.win 2).flush t = true ∧ i ∈ ((cfg0.win 2).blk t).view.set := by
  have hN : cfg0.N = 128 := N_0
  have h0 : (i 0).val < 128 := (i 0).isLt
  have h1 : (i 1).val < 512 := (i 1).isLt
  have h2 : (i 2).val < 640 := (i 2).isLt
  let t : Fin cfg0.N := ⟨(i 0).val, by omega⟩
  obtain ⟨-, -, -, -, -, e20, e21, e22⟩ := idx_facts t
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    rw [e20]; show (i 0).val * 1 ≤ (i 0).val ∧ (i 0).val < (i 0).val * 1 + 1; omega
  | ⟨1, _⟩ =>
    show win0_2.index t (1 : Fin 3) * 512 ≤ (i 1).val ∧ (i 1).val < win0_2.index t (1 : Fin 3) * 512 + 512
    rw [e21]; omega
  | ⟨2, _⟩ =>
    show win0_2.index t (2 : Fin 3) * 640 ≤ (i 2).val ∧ (i 2).val < win0_2.index t (2 : Fin 3) * 640 + 640
    rw [e22]; omega

/-- The result array after the run. -/
theorem final (c : Dev nD) : (dats m 0 c).arrAt 2 cfg0.N = Garr (V m c main_arg0) (V m c main_arg1) :=
  (dats m 0 c).arrAt_eq_of_cover 2 (Garr (V m c main_arg0) (V m c main_arg1)) (fun t _ => flushed_eq m c t) cover

/-- The kernel's run: every weakly fair execution ends with the result array at G of the arguments, the arguments
    unchanged. -/
theorem run : θ_run defs (onTc (τ := τ) (main (F := Ideal))) ⟨m, fun _ => 0, ρ⟩ fun r => ∀ c : Dev nD,
      r.2.mem ((c : Thread nD τ).loc main_v0)
        = Garr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.GcnArray

end
-- ==== Proof.lean ====
/-
  A graph-convolution layer, slab by slab, against the whole-array program.

  The input X is [128, 512, 640]: each of the 128 slabs holds a 512 × 512 adjacency matrix A beside a 512 × 128
  feature matrix; W is a 128 × 128 weight matrix. Both programs return X's adjacency columns joined with

      max ( ( ((A + I) · d_p · d_q) Fe ) W , 0 ),      d_p = 1 / √(∑_q A p q) where that sum is positive, else 0,

  the kernel one slab per grid point (its block of the result written as two pieces, the copied adjacency columns and
  the computed feature columns), the host program on the whole array at once. On the extended reals the two are the
  same function of X and W, with no assumption on the entries:

    * the kernel's reciprocal square root and the host's one-over-square-root agree wherever the degree is positive
      (at +∞ both are 0), and where it is not positive both programs select the constant 0 instead;
    * the kernel multiplies (A + I) by d_p from the right, the host from the left: multiplication commutes;
    * the identity matrix is a comparison of two counters read as a signed word by one and as an unsigned bit by the
      other: a one-bit value reads the same;
    * a matrix product into a zero accumulator and the host's contraction are the same sum over the contracted
      position, and narrowing the float format is the identity on the extended reals.

  The specification is Proof/GcnSpec.lean; the host program is read as it in Proof/RefLayer.lean; the kernel body in
  Proof/KernelSlab.lean, its block in Proof/KernelBlock.lean and the array after its run in Proof/KernelArray.lean.
  The three frames are the generated ones (the host program's is its generated run with the result dropped), and the
  idealization rewrote nothing, so that conjunct is trivial.
-/
import proofs.«169807_j15779709845755_1_alg».proof.Defs
import proofs.«169807_j15779709845755_1_alg».proof.Proof.Gen.Kernel
import proofs.«169807_j15779709845755_1_alg».proof.Proof.Gen.Kernel.Skeleton
import proofs.«169807_j15779709845755_1_alg».proof.Proof.Gen.Kernel.Launch
import proofs.«169807_j15779709845755_1_alg».proof.Proof.Gen.Kernel.Points
import proofs.«169807_j15779709845755_1_alg».proof.Proof.Gen.Kernel.Frame
import proofs.«169807_j15779709845755_1_alg».proof.Proof.Gen.KernelIdeal
import proofs.«169807_j15779709845755_1_alg».proof.Proof.Gen.KernelIdeal.Skeleton
import proofs.«169807_j15779709845755_1_alg».proof.Proof.Gen.KernelIdeal.Launch
import proofs.«169807_j15779709845755_1_alg».proof.Proof.Gen.KernelIdeal.Points
import proofs.«169807_j15779709845755_1_alg».proof.Proof.Gen.KernelIdeal.Frame
import proofs.«169807_j15779709845755_1_alg».proof.Proof.Gen.ReferenceIdeal
import proofs.«169807_j15779709845755_1_alg».proof.Proof.Gen.Pre_finite_inputs
import proofs.«169807_j15779709845755_1_alg».proof.Proof.Gen.KernelIdeal.Value
import proofs.«169807_j15779709845755_1_alg».proof.Proof.Gen.ReferenceIdeal.Run
import proofs.«169807_j15779709845755_1_alg».proof.Proof.Gen.ReferenceIdeal.Read
import proofs.«169807_j15779709845755_1_alg».proof.Proof.RefLayer
import proofs.«169807_j15779709845755_1_alg».proof.Proof.KernelArray
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The host program's run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Both programs end with the result array at G of their (agreeing) arguments. -/
theorem algebraic : Cert.algebraic_KernelIdeal_ReferenceIdeal := by
  intro m ρ m' ρ' _ hagree
  refine ⟨fun c => Cert.GcnSpec.Garr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.GcnArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.GcnRef.ref_G, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
